-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S256x8192 : Shape := ⟨2, ![256, 8192]⟩
abbrev S256x128 : Shape := ⟨2, ![256, 128]⟩

abbrev nBuf : Space → Nat
  | .hbm => 3
  | .vmem => 4
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x128, .f32⟩
  | .local _ .vmem, ⟨0, _⟩ => ⟨S256x8192, .f32⟩
  | .local _ .vmem, ⟨1, _⟩ => ⟨S256x8192, .f32⟩
  | .local _ .vmem, ⟨2, _⟩ => ⟨S8192x128, .f32⟩
  | .local _ .vmem, ⟨3, _⟩ => ⟨S8192x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : Index := Scalar.indexCast v3
  let c0_3 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S256x8192_S256x8192_0_0 : ∀ a, (![0, 0] : Fin 2 → Nat) a + S256x8192.size a ≤ S256x8192.size a
  h_S256x8192 : 0 < S256x8192.numel
  inb_S8192x128_S8192x128_0_0 : ∀ a, (![0, 0] : Fin 2 → Nat) a + S8192x128.size a ≤ S8192x128.size a
  h_S8192x128 : 0 < S8192x128.numel
  h_S256x128 : 0 < S256x128.numel
  dot_S256x8192_S8192x128_S256x128_1_0_0_1_n_n_wf : DotDims.WF S256x8192 S8192x128 S256x128 [1] [0] [0] [1] [] []
  hrank0 : 0 < grid0.rank
  k0_off1_inb : ∀ i : grid0.Coords, ∀ a, (k0_off1 i) a + S256x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x8192 : Shape := ⟨2, ![8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x8192_S8192x128_S8192x128_1_0_0_1_n_n_wf : DotDims.WF S8192x8192 S8192x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.LibOverlayWrite.lean ====
/-
  One store read back.

  A buffer into which ONE unmasked store has been made through a rectangle `r` of a view reads, through that view, as
  what it read before with the values on `r` replaced by the stored ones (`Rect.overlay`): an element of the rectangle
  reads the payload at its position in the rectangle, any other element reads what the buffer held.
-/
import Idealize.ShloMosaic.Lib.Writes
import Idealize.ShloMosaic.Lib.Memref

namespace Idealize.ShloMosaic.View

variable {sig : RefSig} {κ : Kind} {sp : Space} {s : Shape} {e : EltTy} {Val : EltTy → Type}

/-- After one store of `w` through the rectangle `r`, the view reads the old contents overlaid with `w` on `r`. -/
theorem read_writes_single_eq_overlay (v : View sig κ sp s e) (f : v.ty.Contents Val) (r : Rect s)
    (w : r.shape.Idx → Val e) :
    v.read Val (v.writes Val f [(⟨r, w⟩ : Piece Val s e)]) = r.overlay (v.read Val f) w := by
  funext j
  by_cases hj : j ∈ r.set
  · obtain ⟨x, rfl⟩ := r.exists_idx_of_mem hj
    exact (read_writes_cons_emb v f r w [] x).trans (Rect.overlay_emb r (v.read Val f) w x).symm
  · rw [Rect.overlay_of_not_mem r _ _ hj, writes_cons, writes_nil,
      read_slice_write_of_not_mem r _ _ _ (by rw [Rect.map_emb_univ]; exact hj)]

end Idealize.ShloMosaic.View
-- ==== Proof.BodyBits.lean ====
/-
  The kernel body of the program as printed, at one grid point and over the grid.

  The grid has 32 points.  At point `t` the body multiplies rows `256 t … 256 t + 255` of the 8192 × 8192 matrix
  (its block of the first operand) by the whole 8192 × 128 table (the second operand) and stores the 256 × 128 product
  into rows `256 t … 256 t + 255` of the result's buffer, which holds the WHOLE 8192 × 128 result and is written back
  once, after the last point.  A point overwrites only its own 256 rows, so what the buffer holds after a point depends on
  what it held before: the proof data therefore RELATES the two (`step`: the contents handed over with the point's rows
  replaced by the point's product) instead of naming either.  The inputs' buffers are read only, and hold their blocks at
  every point.  From the body obligation over this relation the launch theorem gives the run, and, the argument arrays
  being inputs that are never written back, the frame.
-/
import proofs.«123794_g75127567942118_cont_9to1_m_496_20_alg».proof.Proof.Gen.Kernel.Frame
import proofs.«123794_g75127567942118_cont_9to1_m_496_20_alg».proof.Proof.Gen.Kernel.Skeleton
import proofs.«123794_g75127567942118_cont_9to1_m_496_20_alg».proof.Proof.LibOverlayWrite
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at one grid point -/

/-- The rows the body stores at grid point `i`: 256 whole rows of the 8192 × 128 buffer. -/
abbrev rows (i : grid0.Coords) : Rect S8192x128 := Rect.unit (s := S8192x128) (k0_off1 i) S256x128.size (Gen.k0_off1_inb i)

theorem zero_offsets : (![0, 0] : Fin 2 → Nat) = fun _ => 0 := funext fun a => by
  match a with
  | ⟨0, _⟩ => rfl
  | ⟨1, _⟩ => rfl

set_option maxHeartbeats 1000000 in
/-- The body on whole staging memrefs holding `x0` (a block of 256 rows of the matrix), `x1` (the table) and `x2`
    (whatever the result's buffer held): it leaves the first two as they were and the third at `x2` with the point's
    256 rows replaced by the product of `x0` and `x1`. -/
theorem kernelRun (c : Dev nD) (i : grid0.Coords) (arg1 : Memref sig .tc .vmem S256x8192 .f32) (harg1 : arg1.IsWhole) (arg2 : Memref sig .tc .vmem S8192x128 .f32) (harg2 : arg2.IsWhole) (arg3 : Memref sig .tc .vmem S8192x128 .f32) (harg3 : arg3.IsWhole)
    (x0 : Vec F S256x8192 .f32) (x1 : Vec F S8192x128 .f32) (x2 : Vec F S8192x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (iprop(owns (c : Thread nD τ) arg1 fullShare x0 ∗ owns (c : Thread nD τ) arg2 fullShare x1
                ∗ owns (c : Thread nD τ) arg3 fullShare ((rows i).overlay x2 (k0_pay1 x0 x1))) -∗ K ⟨⟩))
          ⊢ wp frame (wpE (defs₀ (F := F)) Variants.none c none) E (cc0__matmul_block i arg1 harg1 arg2 harg2 arg3 harg3) K := by
    intro E K
    simp only [cc0__matmul_block_eq_skeleton]; unfold cc0__matmul_block_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_single_eq_overlay, harg3.read_unread]
    simp only [View.readAt_eq_ld, harg1.read_unread, harg2.read_unread,
      View.ld_unit_zero (S := S256x8192) zero_offsets, View.ld_unit_zero (S := S8192x128) zero_offsets]

/-! ## The proof data -/

/-- The exact part of the proof data on core `c`: the arrays as the region finds them; after the body each input's
    buffer at its block; nothing named of the result's buffer here (the relation below constrains it). -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem dats_A (c : Dev nD) (w : Fin cfg0.W) : (dats m c).A w = V m c (Pipeline.arrRef spec0 w) := by
  dsimp only [dats]
theorem dats_after0 (c : Dev nD) (t : Fin cfg0.N) : (dats m c).after 0 t = iblk m c 0 t := by dsimp only [dats]
theorem dats_after1 (c : Dev nD) (t : Fin cfg0.N) : (dats m c).after 1 t = iblk m c 1 t := by dsimp only [dats]

/-- What the body makes of the result's buffer at point `t`: handed `Y`, it leaves `Y` with the point's 256 rows
    replaced by the product of the point's block of the matrix with the table. -/
def step (c : Dev nD) (t : Fin cfg0.N) (Y X : Vec F S8192x128 .f32) : Prop :=
  X = (rows (grid0.coords t)).overlay Y (k0_pay1 (iblk m c 0 t) (iblk m c 1 t))

/-- The relation on the result's window; the inputs keep the exact data's. -/
def rel (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => some (step m c)

/-- The proof data: the exact data read relationally, the result's window under `step`. -/
def rdat (c : Dev nD) : RDat τ (Elt F) Unit ℕ (UR sig nD τ) ℕ cfg0 c := (dats m c).toR.override (rel m c)

/-! ## What the body finds in the inputs' buffers -/

/-- The matrix's buffer holds the point's block of 256 rows at every point (it is fetched at every point). -/
theorem finds0 (c : Dev nD) (t : Fin cfg0.N) (Y : Vec F S256x8192 .f32) (h : (rdat m c).Finds 0 t Y) : Y = iblk m c 0 t := by
  obtain ⟨d, hd⟩ := (dats m c).toR_finds 0 t Y (((dats m c).toR.override_finds (ovr := rel m c) (w := 0) rfl t Y).mp h)
  rw [hd]; exact before0_0_of m (dats m c) (dats_A m c 0) (dats_after0 m c) t d

/-- The table's buffer holds the whole table at every point (fetched at the first point, left in place afterwards). -/
theorem finds1 (c : Dev nD) (t : Fin cfg0.N) (Y : Vec F S8192x128 .f32) (h : (rdat m c).Finds 1 t Y) : Y = iblk m c 1 t := by
  obtain ⟨d, hd⟩ := (dats m c).toR_finds 1 t Y (((dats m c).toR.override_finds (ovr := rel m c) (w := 1) rfl t Y).mp h)
  rw [hd]; exact before0_1_of m (dats m c) (dats_A m c 1) (dats_after1 m c) t d

theorem rdat_after0 (c : Dev nD) : (rdat m c).after 0 = (dats m c).toR.after 0 :=
  (dats m c).toR.override_after_of_eq_none (ovr := rel m c) (w := 0) rfl
theorem rdat_after1 (c : Dev nD) : (rdat m c).after 1 = (dats m c).toR.after 1 :=
  (dats m c).toR.override_after_of_eq_none (ovr := rel m c) (w := 1) rfl
theorem rdat_after2 (c : Dev nD) : (rdat m c).after 2 = step m c :=
  (dats m c).toR.override_after_of_eq_some (ovr := rel m c) (w := 2) rfl

/-! ## The body obligation, the run and the frame -/

/-- At every point, whatever the buffers may then hold: the inputs' hold their blocks, so the body runs; it leaves
    them in place and the result's buffer one `step` further. -/
theorem body_obligation (c : Dev nD) : (rdat m c).BodyObligation (defs₀ (F := F)) Variants.none () Set.univ := fun t Y hY => by
  have h0 := finds0 m c t (Y 0) (hY 0)
  have h1 := finds1 m c t (Y 1) (hY 1)
  rw [bigSep_W0, bigSep_W0, rdat_after0, rdat_after1, rdat_after2, h0, h1]
  rw [show (rdat m c).Φ t.succ = (rdat m c).Φ t.castSucc from rfl,
    show (rdat m c).owesAt () t.succ = (rdat m c).owesAt () t.castSucc from rfl]
  change _ ⊢ wp frame (wpE (defs₀ (F := F)) Variants.none c none) Set.univ (bodyAt0 t) _
  unfold bodyAt0
  iintro ⟨HΦ, Ho, H0, H1, H2⟩
  iapply ((kernelRun c (grid0.coords t) _ _ _ _ _ _ (iblk m c 0 t) (iblk m c 1 t) (Y 2)) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; swap; · iexact H0
    ipureintro; exact rfl
  isplitl [H1]
  · iexists _; isplitr; swap; · iexact H1
    ipureintro; exact rfl
  iexists _; isplitr; swap; · iexact H2
  ipureintro; exact rfl

-- the launch theorem's implicit arguments are found by unifying its conclusion with this one, which takes unfolding plain
-- definitions in a metavariable's type
set_option backward.isDefEq.respectTransparency.types false in
/-- Every weakly fair execution of @main terminates, nothing faulting, each windowed array at contents the relational
    data allows after every write-back. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun c w => dats_A m c w) (hΦ := fun _ _ => rfl)

/-- An input array is never written: after the run it holds its launch contents. -/
theorem arg0_kept (c : Dev nD) (G : Buf (Elt F) ((c.tc : Thread nD τ).loc main_arg0)) (h : (rdat m c).ArrAt 1 (cfgs 0).N G) :
    G = m ((c.tc : Thread nD τ).loc main_arg0) :=
  (Eq.mp (congrFun ((rdat m c).ArrAt_in 1 rfl _) _) h).trans ((dats_A m c 1).trans (V_main_arg0 m c))

theorem arg1_kept (c : Dev nD) (G : Buf (Elt F) ((c.tc : Thread nD τ).loc main_arg1)) (h : (rdat m c).ArrAt 0 (cfgs 0).N G) :
    G = m ((c.tc : Thread nD τ).loc main_arg1) :=
  (Eq.mp (congrFun ((rdat m c).ArrAt_in 0 rfl _) _) h).trans ((dats_A m c 0).trans (V_main_arg1 m c))

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨arg0_kept m c _ ((h c).1 1), arg1_kept m c _ ((h c).1 0)⟩) (run_main m ρ)

end Cert.Kernel.Body

end
-- ==== Proof.BodyIdeal.lean ====
/-
  The kernel body of the idealized program, at one grid point and over the grid.

  The grid has 32 points.  At point `t` the body multiplies rows `256 t … 256 t + 255` of the 8192 × 8192 matrix
  (its block of the first operand) by the whole 8192 × 128 table (the second operand) and stores the 256 × 128 product
  into rows `256 t … 256 t + 255` of the result's buffer, which holds the WHOLE 8192 × 128 result and is written back
  once, after the last point.  A point overwrites only its own 256 rows, so what the buffer holds after a point depends on
  what it held before: the proof data therefore RELATES the two (`step`: the contents handed over with the point's rows
  replaced by the point's product) instead of naming either.  The inputs' buffers are read only, and hold their blocks at
  every point.  From the body obligation over this relation the launch theorem gives the run, and, the argument arrays
  being inputs that are never written back, the frame.
-/
import proofs.«123794_g75127567942118_cont_9to1_m_496_20_alg».proof.Proof.Gen.KernelIdeal.Frame
import proofs.«123794_g75127567942118_cont_9to1_m_496_20_alg».proof.Proof.Gen.KernelIdeal.Skeleton
import proofs.«123794_g75127567942118_cont_9to1_m_496_20_alg».proof.Proof.LibOverlayWrite
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at one grid point -/

/-- The rows the body stores at grid point `i`: 256 whole rows of the 8192 × 128 buffer. -/
abbrev rows (i : grid0.Coords) : Rect S8192x128 := Rect.unit (s := S8192x128) (k0_off1 i) S256x128.size (Gen.k0_off1_inb i)

theorem zero_offsets : (![0, 0] : Fin 2 → Nat) = fun _ => 0 := funext fun a => by
  match a with
  | ⟨0, _⟩ => rfl
  | ⟨1, _⟩ => rfl

set_option maxHeartbeats 1000000 in
/-- The body on whole staging memrefs holding `x0` (a block of 256 rows of the matrix), `x1` (the table) and `x2`
    (whatever the result's buffer held): it leaves the first two as they were and the third at `x2` with the point's
    256 rows replaced by the product of `x0` and `x1`. -/
theorem kernelRun (c : Dev nD) (i : grid0.Coords) (arg1 : Memref sig .tc .vmem S256x8192 .f32) (harg1 : arg1.IsWhole) (arg2 : Memref sig .tc .vmem S8192x128 .f32) (harg2 : arg2.IsWhole) (arg3 : Memref sig .tc .vmem S8192x128 .f32) (harg3 : arg3.IsWhole)
    (x0 : Vec F S256x8192 .f32) (x1 : Vec F S8192x128 .f32) (x2 : Vec F S8192x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (iprop(owns (c : Thread nD τ) arg1 fullShare x0 ∗ owns (c : Thread nD τ) arg2 fullShare x1
                ∗ owns (c : Thread nD τ) arg3 fullShare ((rows i).overlay x2 (k0_pay1 x0 x1))) -∗ K ⟨⟩))
          ⊢ wp frame (wpE (defs₀ (F := F)) Variants.none c none) E (cc0__matmul_block i arg1 harg1 arg2 harg2 arg3 harg3) K := by
    intro E K
    simp only [cc0__matmul_block_eq_skeleton]; unfold cc0__matmul_block_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_single_eq_overlay, harg3.read_unread]
    simp only [View.readAt_eq_ld, harg1.read_unread, harg2.read_unread,
      View.ld_unit_zero (S := S256x8192) zero_offsets, View.ld_unit_zero (S := S8192x128) zero_offsets]

/-! ## The proof data -/

/-- The exact part of the proof data on core `c`: the arrays as the region finds them; after the body each input's
    buffer at its block; nothing named of the result's buffer here (the relation below constrains it). -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem dats_A (c : Dev nD) (w : Fin cfg0.W) : (dats m c).A w = V m c (Pipeline.arrRef spec0 w) := by
  dsimp only [dats]
theorem dats_after0 (c : Dev nD) (t : Fin cfg0.N) : (dats m c).after 0 t = iblk m c 0 t := by dsimp only [dats]
theorem dats_after1 (c : Dev nD) (t : Fin cfg0.N) : (dats m c).after 1 t = iblk m c 1 t := by dsimp only [dats]

/-- What the body makes of the result's buffer at point `t`: handed `Y`, it leaves `Y` with the point's 256 rows
    replaced by the product of the point's block of the matrix with the table. -/
def step (c : Dev nD) (t : Fin cfg0.N) (Y X : Vec F S8192x128 .f32) : Prop :=
  X = (rows (grid0.coords t)).overlay Y (k0_pay1 (iblk m c 0 t) (iblk m c 1 t))

/-- The relation on the result's window; the inputs keep the exact data's. -/
def rel (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => some (step m c)

/-- The proof data: the exact data read relationally, the result's window under `step`. -/
def rdat (c : Dev nD) : RDat τ (Elt F) Unit ℕ (UR sig nD τ) ℕ cfg0 c := (dats m c).toR.override (rel m c)

/-! ## What the body finds in the inputs' buffers -/

/-- The matrix's buffer holds the point's block of 256 rows at every point (it is fetched at every point). -/
theorem finds0 (c : Dev nD) (t : Fin cfg0.N) (Y : Vec F S256x8192 .f32) (h : (rdat m c).Finds 0 t Y) : Y = iblk m c 0 t := by
  obtain ⟨d, hd⟩ := (dats m c).toR_finds 0 t Y (((dats m c).toR.override_finds (ovr := rel m c) (w := 0) rfl t Y).mp h)
  rw [hd]; exact before0_0_of m (dats m c) (dats_A m c 0) (dats_after0 m c) t d

/-- The table's buffer holds the whole table at every point (fetched at the first point, left in place afterwards). -/
theorem finds1 (c : Dev nD) (t : Fin cfg0.N) (Y : Vec F S8192x128 .f32) (h : (rdat m c).Finds 1 t Y) : Y = iblk m c 1 t := by
  obtain ⟨d, hd⟩ := (dats m c).toR_finds 1 t Y (((dats m c).toR.override_finds (ovr := rel m c) (w := 1) rfl t Y).mp h)
  rw [hd]; exact before0_1_of m (dats m c) (dats_A m c 1) (dats_after1 m c) t d

theorem rdat_after0 (c : Dev nD) : (rdat m c).after 0 = (dats m c).toR.after 0 :=
  (dats m c).toR.override_after_of_eq_none (ovr := rel m c) (w := 0) rfl
theorem rdat_after1 (c : Dev nD) : (rdat m c).after 1 = (dats m c).toR.after 1 :=
  (dats m c).toR.override_after_of_eq_none (ovr := rel m c) (w := 1) rfl
theorem rdat_after2 (c : Dev nD) : (rdat m c).after 2 = step m c :=
  (dats m c).toR.override_after_of_eq_some (ovr := rel m c) (w := 2) rfl

/-! ## The body obligation, the run and the frame -/

/-- At every point, whatever the buffers may then hold: the inputs' hold their blocks, so the body runs; it leaves
    them in place and the result's buffer one `step` further. -/
theorem body_obligation (c : Dev nD) : (rdat m c).BodyObligation (defs₀ (F := F)) Variants.none () Set.univ := fun t Y hY => by
  have h0 := finds0 m c t (Y 0) (hY 0)
  have h1 := finds1 m c t (Y 1) (hY 1)
  rw [bigSep_W0, bigSep_W0, rdat_after0, rdat_after1, rdat_after2, h0, h1]
  rw [show (rdat m c).Φ t.succ = (rdat m c).Φ t.castSucc from rfl,
    show (rdat m c).owesAt () t.succ = (rdat m c).owesAt () t.castSucc from rfl]
  change _ ⊢ wp frame (wpE (defs₀ (F := F)) Variants.none c none) Set.univ (bodyAt0 t) _
  unfold bodyAt0
  iintro ⟨HΦ, Ho, H0, H1, H2⟩
  iapply ((kernelRun c (grid0.coords t) _ _ _ _ _ _ (iblk m c 0 t) (iblk m c 1 t) (Y 2)) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; swap; · iexact H0
    ipureintro; exact rfl
  isplitl [H1]
  · iexists _; isplitr; swap; · iexact H1
    ipureintro; exact rfl
  iexists _; isplitr; swap; · iexact H2
  ipureintro; exact rfl

-- the launch theorem's implicit arguments are found by unifying its conclusion with this one, which takes unfolding plain
-- definitions in a metavariable's type
set_option backward.isDefEq.respectTransparency.types false in
/-- Every weakly fair execution of @main terminates, nothing faulting, each windowed array at contents the relational
    data allows after every write-back. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun c w => dats_A m c w) (hΦ := fun _ _ => rfl)

/-- An input array is never written: after the run it holds its launch contents. -/
theorem arg0_kept (c : Dev nD) (G : Buf (Elt F) ((c.tc : Thread nD τ).loc main_arg0)) (h : (rdat m c).ArrAt 1 (cfgs 0).N G) :
    G = m ((c.tc : Thread nD τ).loc main_arg0) :=
  (Eq.mp (congrFun ((rdat m c).ArrAt_in 1 rfl _) _) h).trans ((dats_A m c 1).trans (V_main_arg0 m c))

theorem arg1_kept (c : Dev nD) (G : Buf (Elt F) ((c.tc : Thread nD τ).loc main_arg1)) (h : (rdat m c).ArrAt 0 (cfgs 0).N G) :
    G = m ((c.tc : Thread nD τ).loc main_arg1) :=
  (Eq.mp (congrFun ((rdat m c).ArrAt_in 0 rfl _) _) h).trans ((dats_A m c 0).trans (V_main_arg1 m c))

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨arg0_kept m c _ ((h c).1 1), arg1_kept m c _ ((h c).1 0)⟩) (run_main m ρ)

end Cert.KernelIdeal.Body

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibLastFlush.lean ====
/-
  An output written back once.

  A windowed array whose block is written back at ONE point only, the last of the grid, holds after the run its entry
  contents with that block overwritten by what the body left in the staging buffer there.  No earlier point writes
  anything back, so below the last point the array may hold only its entry contents; the last point's write-back is the
  one step that changes it.
-/
import Idealize.ShloMosaic.Lib.Pipeline.Cells

noncomputable section

namespace Idealize.ShloMosaic.Pipeline.RDat

open Idealize.SL Idealize.SL.RA Idealize.ShloMosaic.TcCoe

variable {nD : Nat} {τ : Topo} {sig : RefSig} {Val : EltTy → Type} {Λ₀ : SL.Sem.Labels}
variable {Ix : Type} [DecidableEq Ix] {Name : Type} [DecidableEq Name] {U : Type} [URA U] {Lvl : Type}
variable {cfg : Cfg sig Λ₀} {c : Dev nD} (rd : RDat τ Val Ix Name U Lvl cfg c)

/-- Below a point before which nothing is written back, the array may hold only its entry contents. -/
theorem ArrAt_of_no_flush (w : Fin cfg.W) : ∀ n : Nat, n ≤ cfg.N →
    (∀ u : Fin cfg.N, u.val < n → (cfg.win w).flush u = false) → rd.ArrAt w n = fun F => F = rd.A w
  | 0, _, _ => rfl
  | n + 1, hn, h => by
    have hlt : n < cfg.N := hn
    rw [show n + 1 = (⟨n, hlt⟩ : Fin cfg.N).val + 1 from rfl, rd.ArrAt_succ w ⟨n, hlt⟩, h ⟨n, hlt⟩ (Nat.lt_succ_self n)]
    simp only [Bool.false_eq_true, ↓reduceIte]
    exact ArrAt_of_no_flush w n (Nat.le_of_lt hlt) fun u hu => h u (Nat.lt_succ_of_lt hu)

/-- Written back at the last point only: the array ends at its entry contents with the last point's block overwritten
    by the moved part of some contents the body may have left in the staging buffer there. -/
theorem ArrAt_last (w : Fin cfg.W) (u : Fin cfg.N) (hlast : u.val + 1 = cfg.N) (hfl : (cfg.win w).flush u = true)
    (hno : ∀ u' : Fin cfg.N, u'.val < u.val → (cfg.win w).flush u' = false)
    (F : Buf Val ((cfg.win w).arr.view.loc (c.tc : Thread nD τ))) (h : rd.ArrAt w cfg.N F) :
    ∃ X, rd.Leaves w u X
      ∧ F = ((cfg.win w).blk u).view.write Val (rd.A w) ((cfg.win w).cut (cfg.grid.coords u) X) Finset.univ := by
  have h' : rd.ArrAt w (u.val + 1) F := by rw [hlast]; exact h
  rw [rd.ArrAt_succ w u, if_pos hfl, rd.ArrAt_of_no_flush w u.val (Nat.le_of_lt u.isLt) hno] at h'
  obtain ⟨G₀, X, rfl, hX, hF⟩ := h'
  exact ⟨X, hX, hF⟩

end Idealize.ShloMosaic.Pipeline.RDat

end
-- ==== Proof.Spec.lean ====
/-
  The product of the 8192 × 8192 matrix `A` with the 8192 × 128 table `features`, entry by entry over the extended reals:
  entry `(r, n)` is the sum over `k` of `A (r, k) * features (k, n)`.  A sum over a finite index set in a commutative
  monoid does not depend on the order or the grouping of its terms, so a product computed 256 rows at a time and a
  product computed whole are this one function.
-/
import Idealize.ShloMosaic.Lib.ValueIdx
import Idealize.ShloMosaic.PureOps.Ideal

noncomputable section

namespace Cert.Spec

open Idealize.ShloMosaic Idealize.ShloMosaic.ValueIdx

/-- Entry `(r, n)` of `A · features`: `Σ k, A (r, k) * features (k, n)`. -/
def product (feat : FVec Ideal ⟨2, ![8192, 128]⟩ .f32) (A : FVec Ideal ⟨2, ![8192, 8192]⟩ .f32) :
    FVec Ideal ⟨2, ![8192, 128]⟩ .f32 :=
  fun j => ∑ k : Fin 8192, A (ix2 (j 0 : Fin 8192) k) * feat (ix2 k (j 1 : Fin 128))

end Cert.Spec

end
-- ==== Proof.KernelValue.lean ====
/-
  What the idealized kernel computes: the product, entry by entry.

  Point `t` of the 32-point grid stores into rows `256 t … 256 t + 255` of the result's buffer the product of rows
  `256 t … 256 t + 255` of the matrix with the table; over the extended reals its entry `(p, q)` is
  `Σ k, A (256 t + p, k) * features (k, q)`, which is entry `(256 t + p, q)` of `A · features`.  A point leaves the
  other rows as it found them.  So, by induction on the point, after point `t` the buffer holds the product on every row
  below `256 (t + 1)`; after the last point that is every row.  The buffer is written back once, after the last point,
  and its block is the whole array: the array ends at the product.
-/
import proofs.«123794_g75127567942118_cont_9to1_m_496_20_alg».proof.Proof.BodyIdeal
import proofs.«123794_g75127567942118_cont_9to1_m_496_20_alg».proof.Proof.LibDenseBlock
import proofs.«123794_g75127567942118_cont_9to1_m_496_20_alg».proof.Proof.LibLastFlush
import proofs.«123794_g75127567942118_cont_9to1_m_496_20_alg».proof.Proof.Spec
import Idealize.ShloMosaic.Lib.ValueIdx

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat RDat)

variable (m : (ℓ : Loc nD τ sig) → Buf (Elt Ideal) ℓ) (ρ : Dev nD → PrngReg)

/-! ## The schedule, decided over the grid -/

/-- Point `t` stores at row `256 t`, column 0. -/
theorem off_facts : ∀ t : Fin cfg0.N, k0_off1 (grid0.coords t) (0 : Fin 2) = t.val * 256 ∧ k0_off1 (grid0.coords t) (1 : Fin 2) = 0 :=
  (by decide +kernel : ∀ t : Fin grid0.N, k0_off1 (grid0.coords t) (0 : Fin 2) = t.val * 256 ∧ k0_off1 (grid0.coords t) (1 : Fin 2) = 0)
/-- The matrix's block at point `t` is block row `t`. -/
theorem idx0_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The table's block is the whole table at every point. -/
theorem idx1_facts : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- The result's block is the whole result at every point. -/
theorem idx2_facts : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The result's buffer is never fetched into. -/
theorem fetch2 : ∀ t : Fin cfg0.N, (cfg0.win 2).fetch t = false :=
  (by decide +kernel : ∀ t : Fin grid0.N, win0_2.fetch t = false)

/-! ## The blocks read at an index -/

/-- Row `p` of the matrix's block at point `t` is row `256 t + p` of the matrix. -/
theorem iblk0_apply (c : Dev nD) (t : Fin cfg0.N) (p : Fin 256) (k r : Fin 8192) (hr : r.val = t.val * 256 + p.val) :
    iblk m c 0 t (ix2 p k) = m ((c.tc : Thread nD τ).loc main_arg1) (ix2 r k) := by
  show V m c main_arg1 (((cfg0.win 0).blk t).view.emb (ix2 p k)) = V m c main_arg1 (ix2 r k)
  refine congrArg _ (funext fun a => Fin.ext ?_)
  match a with
  | ⟨0, _⟩ =>
    show win0_0.index t (0 : Fin 2) * 256 + 1 * p.val = r.val
    rw [(idx0_facts t).1, hr]; omega
  | ⟨1, _⟩ =>
    show win0_0.index t (1 : Fin 2) * 8192 + 1 * k.val = k.val
    rw [(idx0_facts t).2]; omega

/-- The table's block at any point is the table. -/
theorem iblk1_apply (c : Dev nD) (t : Fin cfg0.N) (k : Fin 8192) (q : Fin 128) :
    iblk m c 1 t (ix2 k q) = m ((c.tc : Thread nD τ).loc main_arg0) (ix2 k q) := by
  show V m c main_arg0 (((cfg0.win 1).blk t).view.emb (ix2 k q)) = V m c main_arg0 (ix2 k q)
  refine congrArg _ (funext fun a => Fin.ext ?_)
  match a with
  | ⟨0, _⟩ =>
    show win0_1.index t (0 : Fin 2) * 8192 + 1 * k.val = k.val
    rw [(idx1_facts t).1]; omega
  | ⟨1, _⟩ =>
    show win0_1.index t (1 : Fin 2) * 128 + 1 * q.val = q.val
    rw [(idx1_facts t).2]; omega

/-! ## The point's product at an index -/

/-- Entry `(p, q)` of the body's product is `Σ k, x0 (p, k) * x1 (k, q)`. -/
theorem pay_apply (x0 : Vec Ideal S256x8192 .f32) (x1 : Vec Ideal S8192x128 .f32) (p : Fin 256) (q : Fin 128) :
    k0_pay1 (F := Ideal) x0 x1 (ix2 p q) = ∑ k : Fin 8192, x0 (ix2 p k) * x1 (ix2 k q) := by
  unfold k0_pay1
  exact DenseBlock.matmul_zero_apply (K := 256) (N := 8192) (Q := 128)
    Facts₀.dot_S256x8192_S8192x128_S256x128_1_0_0_1_n_n_wf x0 x1 p q

/-! ## One step, at an index -/

/-- The product of the launch arrays on core `c`. -/
abbrev prod (c : Dev nD) : Vec Ideal S8192x128 .f32 :=
  Cert.Spec.product (m ((c.tc : Thread nD τ).loc main_arg0)) (m ((c.tc : Thread nD τ).loc main_arg1))

/-- On the point's own rows a step leaves the product: row `256 t + p` of the buffer is row `p` of the point's product,
    whose entry `(p, q)` is `Σ k, A (256 t + p, k) * features (k, q)`. -/
theorem step_in (c : Dev nD) (t : Fin cfg0.N) (Y X : Vec Ideal S8192x128 .f32) (h : step m c t Y X)
    (y : S8192x128.Idx) (p : Fin 256) (hp : (y 0).val = t.val * 256 + p.val) : X y = prod m c y := by
  have hX : X = (rows (grid0.coords t)).overlay Y (k0_pay1 (iblk m c 0 t) (iblk m c 1 t)) := h
  have e : y = (rows (grid0.coords t)).emb (ix2 p (y 1 : Fin 128)) := funext fun a => Fin.ext (by
    match a with
    | ⟨0, _⟩ =>
      show (y 0).val = k0_off1 (grid0.coords t) (0 : Fin 2) + 1 * p.val
      rw [(off_facts t).1, hp]; omega
    | ⟨1, _⟩ =>
      show (y 1).val = k0_off1 (grid0.coords t) (1 : Fin 2) + 1 * (y 1).val
      rw [(off_facts t).2]; omega)
  calc X y
      = (rows (grid0.coords t)).overlay Y (k0_pay1 (iblk m c 0 t) (iblk m c 1 t))
          ((rows (grid0.coords t)).emb (ix2 p (y 1 : Fin 128))) := by rw [hX]; exact congrArg _ e
    _ = k0_pay1 (iblk m c 0 t) (iblk m c 1 t) (ix2 p (y 1 : Fin 128)) := Rect.overlay_emb _ _ _ _
    _ = prod m c y := by
      refine (pay_apply (iblk m c 0 t) (iblk m c 1 t) p (y 1)).trans ?_
      unfold prod Cert.Spec.product
      refine Finset.sum_congr rfl fun k _ => ?_
      rw [iblk0_apply m c t p k (y 0) hp, iblk1_apply m c t k (y 1)]

/-- Off the point's rows a step leaves what it found. -/
theorem step_out (c : Dev nD) (t : Fin cfg0.N) (Y X : Vec Ideal S8192x128 .f32) (h : step m c t Y X)
    (y : S8192x128.Idx) (hy : (y 0).val < t.val * 256 ∨ t.val * 256 + 256 ≤ (y 0).val) : X y = Y y := by
  have hX : X = (rows (grid0.coords t)).overlay Y (k0_pay1 (iblk m c 0 t) (iblk m c 1 t)) := h
  rw [hX]
  refine Rect.overlay_of_not_mem _ _ _ ?_
  rw [Rect.mem_set_unit]
  intro hall
  have h0 := hall (0 : Fin 2)
  rw [(off_facts t).1] at h0
  have hs : S256x128.size (0 : Fin 2) = 256 := rfl
  rw [hs] at h0
  omega

/-! ## The buffer point by point, and the array after the run -/

theorem grid_points : cfg0.N = 32 := N_0

/-- After point `t` the result's buffer holds the product on the rows below `256 (t + 1)`: the point's own rows by the
    step, the earlier ones because the point before left them so and this one does not touch them. -/
theorem leaves_rows (c : Dev nD) : ∀ (n : Nat) (t : Fin cfg0.N), t.val = n → ∀ X : Vec Ideal S8192x128 .f32, (rdat m c).Leaves 2 t X →
    ∀ y : S8192x128.Idx, (y 0).val < (t.val + 1) * 256 → X y = prod m c y
  | 0, t, ht, X, ⟨Y, _, hstep⟩, y, hy => by
    rw [rdat_after2] at hstep
    exact step_in m c t Y X hstep y ⟨(y 0).val, by omega⟩ (by show (y 0).val = t.val * 256 + (y 0).val; omega)
  | n + 1, t, ht, X, ⟨Y, hfind, hstep⟩, y, hy => by
    rw [rdat_after2] at hstep
    have hN := grid_points
    have htlt := t.isLt
    by_cases hlow : (y 0).val < t.val * 256
    · have hprev : (rdat m c).Leaves 2 ⟨t.val - 1, Nat.lt_of_le_of_lt (Nat.sub_le _ _) t.isLt⟩ Y := by
        rcases ((rdat m c).finds_of_pos (fetch2 t) (by omega) Y).mp hfind with hfl | hL
        · have := (flush0_2 _).mp hfl
          simp only at this
          omega
        · exact hL
      rw [step_out m c t Y X hstep y (Or.inl hlow)]
      exact leaves_rows c n ⟨t.val - 1, Nat.lt_of_le_of_lt (Nat.sub_le _ _) t.isLt⟩ (by show t.val - 1 = n; omega) Y hprev y
        (by show (y 0).val < (t.val - 1 + 1) * 256; rw [Nat.sub_add_cancel (by omega)]; exact hlow)
    · have hy0 := (y 0).isLt
      exact step_in m c t Y X hstep y ⟨(y 0).val - t.val * 256, by omega⟩
        (by show (y 0).val = t.val * 256 + ((y 0).val - t.val * 256); omega)

theorem last_lt : 31 < cfg0.N := by rw [grid_points]; omega

/-- The last point of the grid. -/
abbrev lastPt : Fin cfg0.N := ⟨31, last_lt⟩

/-- The result array after the run is the product: it is written back once, after the last point, from a buffer that
    then holds the product on all 8192 rows. -/
theorem final (c : Dev nD) (F : Buf (Elt Ideal) ((c.tc : Thread nD τ).loc main_v0)) (h : (rdat m c).ArrAt 2 (cfgs 0).N F) :
    F = prod m c := by
  have hN := grid_points
  obtain ⟨X, hX, hF⟩ := (rdat m c).ArrAt_last 2 lastPt (by show 31 + 1 = cfg0.N; rw [hN])
    ((flush0_2 _).mpr rfl)
    (fun u' hu' => eq_false_of_ne_true fun hf => by
      have := (flush0_2 u').mp hf
      have hlt : u'.val < 31 := hu'
      omega) F h
  have hr : ((cfg0.win 2).blk lastPt).view.read (Elt Ideal) F
      = (cfg0.win 2).cut (cfg0.grid.coords lastPt) X := by
    rw [hF]; exact View.read_write_univ _ _
  funext y
  -- element `y` of the last block sits at index `y` of the array, and is element `y` of the buffer
  have e1 : ((cfg0.win 2).blk lastPt).view.emb y = y := funext fun a => Fin.ext (by
    match a with
    | ⟨0, _⟩ =>
      show win0_2.index lastPt (0 : Fin 2) * 8192 + 1 * (y 0).val = (y 0).val
      rw [(idx2_facts _).1]; omega
    | ⟨1, _⟩ =>
      show win0_2.index lastPt (1 : Fin 2) * 128 + 1 * (y 1).val = (y 1).val
      rw [(idx2_facts _).2]; omega)
  have e2 : F y = X y := by
    have hy : F (((cfg0.win 2).blk lastPt).view.emb y) = X y := congrFun hr y
    rw [e1] at hy; exact hy
  rw [e2]
  exact leaves_rows m c 31 lastPt rfl X hX y
    (by have hlt : (y 0).val < 8192 := (y 0).isLt; show (y 0).val < (31 + 1) * 256; omega)

/-! ## The kernel's run, its result named -/

/-- Every weakly fair execution of the idealized program ends with the result array at the product of the launch arrays,
    and the argument arrays unchanged. -/
theorem run : θ_run defs (onTc (τ := τ) (main (F := Ideal))) ⟨m, fun _ => 0, ρ⟩ (fun r => ∀ c : Dev nD,
      r.2.mem ((c.tc : Thread nD τ).loc main_v0) = prod m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨final m c _ ((h c).1 2), arg0_kept m c _ ((h c).1 1), arg1_kept m c _ ((h c).1 0)⟩)
    (run_main m ρ)

end Cert.KernelIdeal.KValue

end
-- ==== Proof.RefValue.lean ====
/-
  The reference's result is the product.

  The reference is one host `dot_general` of `A` (8192 × 8192) with `features` (8192 × 128), contracting `A`'s
  second axis with `features`' first.  Over the extended reals its entry `(r, n)` is `Σ k, A (r, k) * features (k, n)`:
  the left operand is read at row `r`, column `k`, the right at row `k`, column `n`.
-/
import proofs.«123794_g75127567942118_cont_9to1_m_496_20_alg».proof.Proof.Gen.ReferenceIdeal.Read
import proofs.«123794_g75127567942118_cont_9to1_m_496_20_alg».proof.Proof.Spec

noncomputable section

namespace Cert.ReferenceIdeal.RefValue

open Cert.ReferenceIdeal Cert.ReferenceIdeal.Read Idealize.ShloMosaic Idealize.ShloMosaic.ValueIdx

/-- The left operand of entry `i` at contraction position `k` is `A (i 0, k)`. -/
theorem lidx_eq (i : S8192x128.Idx) (k : Fin 8192) : lidx_main_v0 i k = ix2 (i 0 : Fin 8192) k :=
  funext fun a => Fin.ext (by match a with | ⟨0, _⟩ => rfl | ⟨1, _⟩ => rfl)

/-- The right operand of entry `i` at contraction position `k` is `features (k, i 1)`. -/
theorem ridx_eq (i : S8192x128.Idx) (k : Fin 8192) : ridx_main_v0 i k = ix2 k (i 1 : Fin 128) :=
  funext fun a => Fin.ext (by match a with | ⟨0, _⟩ => rfl | ⟨1, _⟩ => rfl)

/-- The host's product of the argument arrays is the product, entry by entry. -/
theorem result_eq (feat : (⟨S8192x128, .f32⟩ : BufTy).Contents (Elt Ideal)) (A : (⟨S8192x8192, .f32⟩ : BufTy).Contents (Elt Ideal)) :
    val_main_v0 (F := Ideal) feat A = Cert.Spec.product feat A := by
  funext i
  rw [val_main_v0_apply]
  unfold Cert.Spec.product
  refine Finset.sum_congr rfl fun k _ => ?_
  rw [lidx_eq, ridx_eq]
  rfl

end Cert.ReferenceIdeal.RefValue

end
-- ==== Proof.lean ====
/-
  `out = A · features`, with `A` an 8192 × 8192 matrix and `features` an 8192 × 128 table, computed 256 rows at a time
  by a kernel whose grid has 32 points, against one whole matrix product on the host.

  Over the extended reals both results are, entry by entry, `Σ k, A (r, k) * features (k, n)`: the kernel's point
  `t` multiplies rows `256 t … 256 t + 255` of `A` by the whole table into a zero accumulator and stores them into
  those rows of a buffer that is written back once, after the last point (Proof/BodyIdeal.lean for the run,
  Proof/KernelValue.lean for what the buffer and then the array hold); the reference's one `dot_general` is the same sum
  (Proof/RefValue.lean).  No law beyond the definition of the two products as that sum is needed, so the precondition is
  never opened.  The three frames: each kernel program's from its run over the relational proof data (the argument arrays
  are inputs, never written back), the reference's from its run with the result dropped.  The idealization rewrote no
  operation, so `preserves` is `True`.
-/
import proofs.«123794_g75127567942118_cont_9to1_m_496_20_alg».proof.Defs
import proofs.«123794_g75127567942118_cont_9to1_m_496_20_alg».proof.Proof.Gen.Kernel
import proofs.«123794_g75127567942118_cont_9to1_m_496_20_alg».proof.Proof.Gen.KernelIdeal
import proofs.«123794_g75127567942118_cont_9to1_m_496_20_alg».proof.Proof.Gen.ReferenceIdeal
import proofs.«123794_g75127567942118_cont_9to1_m_496_20_alg».proof.Proof.Gen.Pre_finite_inputs
import proofs.«123794_g75127567942118_cont_9to1_m_496_20_alg».proof.Proof.Gen.ReferenceIdeal.Run
import proofs.«123794_g75127567942118_cont_9to1_m_496_20_alg».proof.Proof.BodyBits
import proofs.«123794_g75127567942118_cont_9to1_m_496_20_alg».proof.Proof.BodyIdeal
import proofs.«123794_g75127567942118_cont_9to1_m_496_20_alg».proof.Proof.KernelValue
import proofs.«123794_g75127567942118_cont_9to1_m_496_20_alg».proof.Proof.RefValue

noncomputable section

namespace Cert.Proof

open Idealize.ShloMosaic Idealize.ShloMosaic.TcCoe Idealize.SL.Sem

/-- The program as printed runs and leaves its arguments unchanged. -/
theorem frame_p : Cert.frame_Kernel := fun m ρ _ => Cert.Kernel.Body.frame m ρ

/-- So does the idealized program. -/
theorem frame_pi : Cert.frame_KernelIdeal := fun m ρ _ => Cert.KernelIdeal.Body.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, the kernel's result array ends at the product of its launch arrays and the
    reference's at the host's product of its own: one function of arrays that agree. -/
theorem algebraic : Cert.algebraic_KernelIdeal_ReferenceIdeal := by
  intro m ρ m' ρ' _ hagree
  refine ⟨fun c => Cert.KernelIdeal.KValue.prod m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
